-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S6x1024x1024 : Shape := ⟨3, ![6, 1024, 1024]⟩
abbrev S6x1024 : Shape := ⟨2, ![6, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6x1024x1024 : S_.BroadcastsInDim S6x1024x1024 (![] : Fin 0 → Fin S6x1024x1024.rank)
  reducesTo_S6x1024x1024_S_d0_1_2 : S6x1024x1024.ReducesTo [0, 1, 2] S_
  bcast_S_S6x1024 : S_.BroadcastsInDim S6x1024 (![] : Fin 0 → Fin S6x1024.rank)
  reducesTo_S6x1024_S_d0_1 : S6x1024.ReducesTo [0, 1] S_

variable [Facts]

def fn_part1 {F : FTy → Type} [FloatOps F] (main_arg4 : FVec F S6x1024 .f32) (main_arg5 : FVec F S6x1024x1024 .f32) (main_v13 : IVec S_ 1) (main_v16 : IVec S6x1024x1024 1) : IVec S_ 1 :=
  let main_c_5 : IVec S_ 1 := constantI S_ 1 1#1
  let main_v17 : IVec S_ 1 := (fun x v => Host.reduce IntOp.andi x v reducesTo_S6x1024x1024_S_d0_1_2 h_S_) main_v16 main_c_5
  let main_v18 : IVec S_ 1 := andi main_v13 main_v17
  let main_v19 : FVec F S6x1024 .f32 := Host.absf main_arg4
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S6x1024x1024 .f32 := Host.absf main_arg5
  let main_cst_8 : FVec F S_ .f32 := constant S_ .f32 0x7F800000#32
  let main_v25 : FVec F S6x1024x1024 .f32 := broadcastInDim S6x1024x1024 ![] bcast_S_S6x1024x1024 main_cst_8
  let main_v26 : IVec S6x1024x1024 1 := cmpf .olt main_v24 main_v25
  let main_c_9 : IVec S_ 1 := constantI S_ 1 1#1
  let main_v27 : IVec S_ 1 := (fun x v => Host.reduce IntOp.andi x v reducesTo_S6x1024x1024_S_d0_1_2 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S6x1024x1024 .f32) (main_arg4 : FVec F S6x1024 .f32) (main_arg5 : FVec F S6x1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S6x1024x1024 .f32 := Host.absf main_arg3
  let main_cst_4 : FVec F S_ .f32 := constant S_ .f32 0x7F800000#32
  let main_v15 : FVec F S6x1024x1024 .f32 := broadcastInDim S6x1024x1024 ![] bcast_S_S6x1024x1024 main_cst_4
  let main_v16 : IVec S6x1024x1024 1 := cmpf .olt main_v14 main_v15
  fn_part1 (F := F) main_arg4 main_arg5 main_v13 main_v16
-- ==== Kernel.lean ====
abbrev S4096x1024 : Shape := ⟨2, ![4096, 1024]⟩
abbrev S6x1024x1024 : Shape := ⟨3, ![6, 1024, 1024]⟩
abbrev S6x1024 : Shape := ⟨2, ![6, 1024]⟩
abbrev S6144x1024 : Shape := ⟨2, ![6144, 1024]⟩
abbrev S1x6144 : Shape := ⟨2, ![1, 6144]⟩
abbrev S128x1024 : Shape := ⟨2, ![128, 1024]⟩
abbrev S1024x6144 : Shape := ⟨2, ![1024, 6144]⟩
abbrev S128x6144 : Shape := ⟨2, ![128, 6144]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S6x1024x1024, .f32⟩
  | .hbm, ⟨4, _⟩ => ⟨S6x1024, .f32⟩
  | .hbm, ⟨5, _⟩ => ⟨S6x1024x1024, .f32⟩
  | .hbm, ⟨6, _⟩ => ⟨S6144x1024, .f32⟩
  | .hbm, ⟨7, _⟩ => ⟨S6144x1024, .bf16⟩
  | .hbm, ⟨8, _⟩ => ⟨S6144x1024, .f32⟩
  | .hbm, ⟨9, _⟩ => ⟨S6144x1024, .bf16⟩
  | .hbm, ⟨10, _⟩ => ⟨S1x6144, .f32⟩
  | .hbm, ⟨11, _⟩ => ⟨S4096x1024, .f32⟩
  | .hbm, ⟨12, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S6144x1024, .bf16⟩
  | .local _ .vmem, ⟨7, _⟩ => ⟨S6144x1024, .bf16⟩
  | .local _ .vmem, ⟨8, _⟩ => ⟨S1x6144, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S6x1024x1024_S6144x1024 : S6x1024x1024.ShapeCasts S6144x1024
  bitsLt_bf16_f32 : FTy.bits .bf16 < FTy.bits .f32
  shapeCasts_S6x1024_S1x6144 : S6x1024.ShapeCasts S1x6144
  inb_S128x1024_S128x1024_0_0 : ∀ a, (![0, 0] : Fin 2 → Nat) a + S128x1024.size a ≤ S128x1024.size a
  h_S128x1024 : 0 < S128x1024.numel
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  transposes_S6144x1024_p1_0_S1024x6144 : S6144x1024.Transposes [1, 0] S1024x6144
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S128x6144 : S1x6144.Broadcasts S128x6144
  slices_S128x6144_o0_0_S128x1024 : S128x6144.Slices ![0, 0] S128x1024
  slices_S128x6144_o0_1024_S128x1024 : S128x6144.Slices ![0, 1024] S128x1024
  slices_S128x6144_o0_2048_S128x1024 : S128x6144.Slices ![0, 2048] S128x1024
  slices_S128x6144_o0_3072_S128x1024 : S128x6144.Slices ![0, 3072] S128x1024
  slices_S128x6144_o0_4096_S128x1024 : S128x6144.Slices ![0, 4096] S128x1024
  slices_S128x6144_o0_5120_S128x1024 : S128x6144.Slices ![0, 5120] S128x1024
  dot_S128x1024_S1024x6144_S128x6144_1_0_0_1_n_n_wf : DotDims.WF S128x1024 S1024x6144 S128x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6144x1024.size a ≤ S6144x1024.size a
  hwx0_3 : ∀ i : grid0.Coords, EltTy.bits .bf16 = 32 ∨ (Rect.block (s := S6144x1024) S6144x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x1024.size a ≤ S6144x1024.size a
  hwx0_4 : ∀ i : grid0.Coords, EltTy.bits .bf16 = 32 ∨ (Rect.block (s := S6144x1024) S6144x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)

variable [Facts₀]

def dot_S128x1024_S1024x6144_S128x6144_1_0_0_1_n_n : DotDims S128x1024 S1024x6144 S128x6144 where
  lhsContracting := [1]
  rhsContracting := [0]
  lhsNonContracting := [0]
  rhsNonContracting := [1]
  lhsBatch := []
  rhsBatch := []
  wf := dot_S128x1024_S1024x6144_S128x6144_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S6144x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S6144x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S6x1024x1024 : Shape := ⟨3, ![6, 1024, 1024]⟩
abbrev S6x1024 : Shape := ⟨2, ![6, 1024]⟩
abbrev S6x1024x4096 : Shape := ⟨3, ![6, 1024, 4096]⟩
abbrev S6x4096x1024 : Shape := ⟨3, ![6, 4096, 1024]⟩
abbrev S6x1x1024 : Shape := ⟨3, ![6, 1, 1024]⟩
abbrev S1x4096x1024 : Shape := ⟨3, ![1, 4096, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S6x1024x1024, .f32⟩
  | .hbm, ⟨4, _⟩ => ⟨S6x1024, .f32⟩
  | .hbm, ⟨5, _⟩ => ⟨S6x1024x1024, .f32⟩
  | .hbm, ⟨6, _⟩ => ⟨S6x1024x4096, .f32⟩
  | .hbm, ⟨7, _⟩ => ⟨S6x4096x1024, .f32⟩
  | .hbm, ⟨8, _⟩ => ⟨S6x1x1024, .f32⟩
  | .hbm, ⟨9, _⟩ => ⟨S6x4096x1024, .f32⟩
  | .hbm, ⟨10, _⟩ => ⟨S6x4096x1024, .f32⟩
  | .hbm, ⟨11, _⟩ => ⟨S6x1024x4096, .f32⟩
  | .hbm, ⟨12, _⟩ => ⟨S6x4096x1024, .f32⟩
  | .hbm, ⟨13, _⟩ => ⟨S6x4096x1024, .f32⟩
  | .hbm, ⟨14, _⟩ => ⟨S1x4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1x4096x1024, .f32⟩
  | .hbm, ⟨45, _⟩ => ⟨S4096x1024, .f32⟩
  | .hbm, ⟨46, _⟩ => ⟨S4096x1024, .f32⟩
  | .hbm, ⟨47, _⟩ => ⟨S1x4096x1024, .f32⟩
  | .hbm, ⟨48, _⟩ => ⟨S4096x1024, .f32⟩
  | .hbm, ⟨49, _⟩ => ⟨S1x4096x1024, .f32⟩
  | .hbm, ⟨50, _⟩ => ⟨S4096x1024, .f32⟩
  | .hbm, ⟨51, _⟩ => ⟨S4096x1024, .f32⟩
  | .hbm, ⟨52, _⟩ => ⟨S1x4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]

class Facts₀ : Prop where
  transposes_S6x1024x4096_S6x4096x1024_0_2_1 : S6x1024x4096.Transposes [0, 2, 1] S6x4096x1024
  bcast_S6x1024_S6x1x1024_0_2 : S6x1024.BroadcastsInDim S6x1x1024 (![0, 2] : Fin 2 → Fin S6x1x1024.rank)
  bcast_S6x1x1024_S6x4096x1024_0_1_2 : S6x1x1024.BroadcastsInDim S6x4096x1024 (![0, 1, 2] : Fin 3 → Fin S6x4096x1024.rank)
  slices_S6x4096x1024_S1x4096x1024_0_0_0 : S6x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S6x4096x1024_S1x4096x1024_1_0_0 : S6x4096x1024.Slices ![1, 0, 0] S1x4096x1024
  slices_S6x4096x1024_S1x4096x1024_2_0_0 : S6x4096x1024.Slices ![2, 0, 0] S1x4096x1024
  slices_S6x4096x1024_S1x4096x1024_3_0_0 : S6x4096x1024.Slices ![3, 0, 0] S1x4096x1024
  slices_S6x4096x1024_S1x4096x1024_4_0_0 : S6x4096x1024.Slices ![4, 0, 0] S1x4096x1024
  slices_S6x4096x1024_S1x4096x1024_5_0_0 : S6x4096x1024.Slices ![5, 0, 0] S1x4096x1024
  dot_S6x1024x1024_S4096x1024_S6x1024x4096_2_1_01_0_n_n_wf : DotDims.WF S6x1024x1024 S4096x1024 S6x1024x4096 [2] [1] [0, 1] [0] [] []

variable [Facts₀]

def dot_S6x1024x1024_S4096x1024_S6x1024x4096_2_1_01_0_n_n : DotDims S6x1024x1024 S4096x1024 S6x1024x4096 where
  lhsContracting := [2]
  rhsContracting := [1]
  lhsNonContracting := [0, 1]
  rhsNonContracting := [0]
  lhsBatch := []
  rhsBatch := []
  wf := dot_S6x1024x1024_S4096x1024_S6x1024x4096_2_1_01_0_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payloads.lean ====
/-
  The two matrix products of the kernel's body, read at one entry.

  At a grid point the body holds a block of 128 rows of x (and of h_prev), the whole merged weight matrix — 6144 rows,
  row g·1024 + u being row u of gate g's matrix — and the merged bias row of 6144 entries.  It transposes the weight
  matrix and multiplies, so at row p of the block and merged column j

      input half      (p, j)  =  (Σ_k x[p, k] · W[j, k]) + b[0, j]
      recurrent half  (p, j)  =   Σ_k h[p, k] · U[j, k].

  The narrowing of the operands to the shorter float format before the product is the identity on the extended
  reals, so it leaves no trace here; the transpose only swaps the two coordinates at which the weights are read; the
  bias row is repeated down the 128 rows.
-/
import proofs.«133136_j65962107732595_2_alg».proof.Proof.Gen.KernelIdeal.Skeleton
import proofs.«133136_j65962107732595_2_alg».proof.Proof.LibMatmulNN
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The transposed weight matrix at (k, j) is the weight matrix at (j, k). -/
theorem transposed_apply (w : Vec Ideal S6144x1024 .bf16) (k : Fin 1024) (j : Fin 6144) :
    transpose S1024x6144 [1, 0] (shapeCast S6144x1024 w shapeCasts_S6144x1024_S6144x1024)
      transposes_S6144x1024_p1_0_S1024x6144 (ix2 k j) = w (ix2 j k) := by
  rw [shapeCast_self]
  refine transpose_apply _ _ _ _ (ix2 j k) (fun b => ?_)
  match b with
  | ⟨0, _⟩ => rfl
  | ⟨1, _⟩ => rfl

/-- The bias row repeated down the block's rows: at (p, j) it is the row's entry j. -/
theorem biasRow_apply (b : Vec Ideal S1x6144 .f32) (p : Fin 128) (j : Fin 6144) :
    broadcastTo S128x6144 (shapeCast S1x6144 b shapeCasts_S1x6144_S1x6144) broadcasts_S1x6144_S128x6144 (ix2 p j)
      = b (ix2 (0 : Fin 1) j) := by
  rw [shapeCast_self]
  refine broadcastTo_apply _ _ _ (ix2 (0 : Fin 1) j) (fun a => ?_)
  match a with
  | ⟨0, _⟩ => rfl
  | ⟨1, _⟩ => rfl

/-- The recurrent half at (p, j): row p of the h block against row j of the merged recurrent weights. -/
theorem recHalf_apply (h : Vec Ideal S128x1024 .f32) (u : Vec Ideal S6144x1024 .bf16) (p : Fin 128) (j : Fin 6144) :
    k0_pay3 (F := Ideal) h u (ix2 p j) = ∑ k : Fin 1024, h (ix2 p k) * u (ix2 j k) := by
  unfold k0_pay3
  refine (Cert.MatmulNN.matmul_zero_apply dot_S128x1024_S1024x6144_S128x6144_1_0_0_1_n_n rfl none _ _ p j).trans ?_
  refine Finset.sum_congr rfl fun k _ => ?_
  exact congrArg (h (ix2 p k) * ·) (transposed_apply u k j)

/-- The input half at (p, j): row p of the x block against row j of the merged input weights, plus bias entry j. -/
theorem inHalf_apply (x : Vec Ideal S128x1024 .f32) (w : Vec Ideal S6144x1024 .bf16) (b : Vec Ideal S1x6144 .f32)
    (p : Fin 128) (j : Fin 6144) :
    k0_pay2 (F := Ideal) x w b (ix2 p j) = (∑ k : Fin 1024, x (ix2 p k) * w (ix2 j k)) + b (ix2 (0 : Fin 1) j) := by
  unfold k0_pay2
  refine (addf_apply _ _ _).trans ?_
  refine congrArg₂ (· + ·) ?_ (biasRow_apply b p j)
  refine (Cert.MatmulNN.matmul_zero_apply dot_S128x1024_S1024x6144_S128x6144_1_0_0_1_n_n rfl none _ _ p j).trans ?_
  refine Finset.sum_congr rfl fun k _ => ?_
  exact congrArg (x (ix2 p k) * ·) (transposed_apply w k j)

end Cert.KernelIdeal.Payload

end
-- ==== Proof.Cell.lean ====
/-
  One step of a gated recurrent cell with six gates, over the extended reals.

  For a batch row p and a hidden unit u the layer forms, for each gate g = 0, …, 5, two pre-activations

      a_g = (Σ_d x[p, d] · W[g, u, d]) + b[g, u]        (the input half, which carries the bias)
      r_g =  Σ_d h[p, d] · U[g, u, d]                   (the recurrent half)

  and from them, with σ the logistic function and c = c_prev[p, u],

      c' = (σ(a₁ + r₁) · c  +  σ(a₀ + r₀) · tanh (a₃ + r₃))  +  σ(a₅ + r₅) · (a₄ · r₄)
      h' =  σ(a₂ + r₂) · tanh c'.

  Gate 4 is multiplicative: its two halves are multiplied, not added, and the bias sits in the input half only.

  The sums and products are grouped exactly as both programs group them.  Comparing the programs therefore needs no
  law of arithmetic except the commutativity of a product inside an inner sum, which holds on the extended reals at
  the infinities too; nothing here asks an entry to be finite.
-/
import Idealize.ShloMosaic.PureOps.Ideal
import Idealize.ShloMosaic.Lib.ValueIdx

noncomputable section

namespace Cert.Cell

open Idealize.ShloMosaic Idealize.ShloMosaic.ValueIdx

/-- The new cell state from the six pairs of pre-activations `a`, `r` and the old state `c`. -/
def cellState (a r : Fin 6 → EReal) (c : EReal) : EReal :=
  (Ideal.logistic (a 1 + r 1) * c + Ideal.logistic (a 0 + r 0) * Ideal.tanh (a 3 + r 3))
    + Ideal.logistic (a 5 + r 5) * (a 4 * r 4)

/-- The new hidden value: the output gate times tanh of the new cell state. -/
def cellOut (a r : Fin 6 → EReal) (c : EReal) : EReal :=
  Ideal.logistic (a 2 + r 2) * Ideal.tanh (cellState a r c)

/-- The shape of the batch-by-feature arrays x, h_prev, c_prev and of both results. -/
abbrev SRows : Shape := ⟨2, ![4096, 1024]⟩
/-- The shape of a stack of six weight matrices. -/
abbrev SGates : Shape := ⟨3, ![6, 1024, 1024]⟩
/-- The shape of the six bias rows. -/
abbrev SBias : Shape := ⟨2, ![6, 1024]⟩

/-- The input half of gate g at row p and unit u: row p of x against row u of the gate's matrix, plus the bias. -/
def inPre (x : FVec Ideal SRows .f32) (w : FVec Ideal SGates .f32) (b : FVec Ideal SBias .f32)
    (p : Fin 4096) (u : Fin 1024) (g : Fin 6) : EReal :=
  (∑ d : Fin 1024, x (ix2 p d) * w (ix3 g u d)) + b (ix2 g u)

/-- The recurrent half of gate g at row p and unit u: row p of h against row u of the gate's matrix; no bias. -/
def recPre (h : FVec Ideal SRows .f32) (w : FVec Ideal SGates .f32)
    (p : Fin 4096) (u : Fin 1024) (g : Fin 6) : EReal :=
  ∑ d : Fin 1024, h (ix2 p d) * w (ix3 g u d)

/-- The whole array of new cell states, entry by entry. -/
def stateArr (x h c : FVec Ideal SRows .f32) (w : FVec Ideal SGates .f32) (b : FVec Ideal SBias .f32)
    (u : FVec Ideal SGates .f32) : FVec Ideal SRows .f32 :=
  fun i => cellState (inPre x w b (i 0) (i 1)) (recPre h u (i 0) (i 1)) (c i)

/-- The whole array of new hidden values, entry by entry. -/
def outArr (x h c : FVec Ideal SRows .f32) (w : FVec Ideal SGates .f32) (b : FVec Ideal SBias .f32)
    (u : FVec Ideal SGates .f32) : FVec Ideal SRows .f32 :=
  fun i => cellOut (inPre x w b (i 0) (i 1)) (recPre h u (i 0) (i 1)) (c i)

end Cert.Cell

end
-- ==== Proof.BlockCell.lean ====
/-
  What the body leaves in its two output blocks, entry by entry, as the cell of the blocks it loaded.

  At a grid point the body holds six loaded blocks: 128 rows of x, of h_prev and of c_prev, the merged weight
  matrices and the merged bias row.  Its two matrix products have 6144 columns; gate g occupies columns g·1024 …
  g·1024 + 1023, and the body cuts each gate out by that column offset.  So at row q of the block and unit u every
  gate's two halves are read at column g·1024 + u, and the stored values are the cell's new state and new hidden value
  formed from those twelve numbers and c_prev's entry (q, u).
-/
import proofs.«133136_j65962107732595_2_alg».proof.Proof.Gen.KernelIdeal.Value
import proofs.«133136_j65962107732595_2_alg».proof.Proof.Payloads
import proofs.«133136_j65962107732595_2_alg».proof.Proof.Cell

noncomputable section

namespace Cert.KernelIdeal.BlockCell

open Cert.KernelIdeal Cert.KernelIdeal.Gen Cert.KernelIdeal.Value Idealize.ShloMosaic Idealize.ShloMosaic.ValueIdx

/-- The merged column of gate g, unit u. -/
def col (g : Fin 6) (u : Fin 1024) : Fin 6144 :=
  ⟨g.val * 1024 + u.val, by have hg := g.isLt; have hu := u.isLt; omega⟩

theorem col_val (g : Fin 6) (u : Fin 1024) : (col g u).val = g.val * 1024 + u.val := rfl

/-- The input half of gate g at row q of the block and unit u, from the loaded blocks. -/
def blkIn (P0 : Vec Ideal S128x1024 .f32) (P1 : Vec Ideal S6144x1024 .bf16) (P2 : Vec Ideal S1x6144 .f32)
    (q : Fin 128) (u : Fin 1024) (g : Fin 6) : EReal :=
  (∑ k : Fin 1024, P0 (ix2 q k) * P1 (ix2 (col g u) k)) + P2 (ix2 (0 : Fin 1) (col g u))

/-- The recurrent half of gate g at row q of the block and unit u, from the loaded blocks. -/
def blkRec (P3 : Vec Ideal S128x1024 .f32) (P4 : Vec Ideal S6144x1024 .bf16)
    (q : Fin 128) (u : Fin 1024) (g : Fin 6) : EReal :=
  ∑ k : Fin 1024, P3 (ix2 q k) * P4 (ix2 (col g u) k)

/-- The first product read at row q and at gate g's column offset plus u is gate g's input half. -/
theorem in_at (P0 : Vec Ideal S128x1024 .f32) (P1 : Vec Ideal S6144x1024 .bf16) (P2 : Vec Ideal S1x6144 .f32)
    (q : Fin 128) (u : Fin 1024) (g : Fin 6) (off : Nat) (hoff : off = g.val * 1024) (i : S128x6144.Idx)
    (h0 : (i 0).val = q.val) (h1 : (i 1).val = u.val + off) :
    k0_pay2 (F := Ideal) P0 P1 P2 i = blkIn P0 P1 P2 q u g := by
  have e : i = ix2 q (col g u) := funext fun a => Fin.ext (by
    match a with
    | ⟨0, _⟩ => exact h0
    | ⟨1, _⟩ => show (i 1).val = g.val * 1024 + u.val; omega)
  rw [e]
  exact Payload.inHalf_apply P0 P1 P2 q (col g u)

/-- The second product read at row q and at gate g's column offset plus u is gate g's recurrent half. -/
theorem rec_at (P3 : Vec Ideal S128x1024 .f32) (P4 : Vec Ideal S6144x1024 .bf16)
    (q : Fin 128) (u : Fin 1024) (g : Fin 6) (off : Nat) (hoff : off = g.val * 1024) (i : S128x6144.Idx)
    (h0 : (i 0).val = q.val) (h1 : (i 1).val = u.val + off) :
    k0_pay3 (F := Ideal) P3 P4 i = blkRec P3 P4 q u g := by
  have e : i = ix2 q (col g u) := funext fun a => Fin.ext (by
    match a with
    | ⟨0, _⟩ => exact h0
    | ⟨1, _⟩ => show (i 1).val = g.val * 1024 + u.val; omega)
  rw [e]
  exact Payload.recHalf_apply P3 P4 q (col g u)

/-- The block stored as the new cell state, at (q, u). -/
theorem state_block (P0 : Vec Ideal S128x1024 .f32) (P1 : Vec Ideal S6144x1024 .bf16) (P2 : Vec Ideal S1x6144 .f32)
    (P3 : Vec Ideal S128x1024 .f32) (P4 : Vec Ideal S6144x1024 .bf16) (P5 : Vec Ideal S128x1024 .f32)
    (q : Fin 128) (u : Fin 1024) :
    E7 (F := Ideal) P0 P1 P2 P3 P4 P5 (ix2 q u)
      = Cell.cellState (blkIn P0 P1 P2 q u) (blkRec P3 P4 q u) (P5 (ix2 q u)) := by
  have a1 := in_at P0 P1 P2 q u (1 : Fin 6) 1024 rfl (ix7_0 (ix2 q u)) rfl rfl
  have r1 := rec_at P3 P4 q u (1 : Fin 6) 1024 rfl (ix7_1 (ix2 q u)) rfl rfl
  have a0 := in_at P0 P1 P2 q u (0 : Fin 6) 0 rfl (ix7_3 (ix2 q u)) rfl rfl
  have r0 := rec_at P3 P4 q u (0 : Fin 6) 0 rfl (ix7_4 (ix2 q u)) rfl rfl
  have a3 := in_at P0 P1 P2 q u (3 : Fin 6) 3072 rfl (ix7_5 (ix2 q u)) rfl rfl
  have r3 := rec_at P3 P4 q u (3 : Fin 6) 3072 rfl (ix7_6 (ix2 q u)) rfl rfl
  have a5 := in_at P0 P1 P2 q u (5 : Fin 6) 5120 rfl (ix7_7 (ix2 q u)) rfl rfl
  have r5 := rec_at P3 P4 q u (5 : Fin 6) 5120 rfl (ix7_8 (ix2 q u)) rfl rfl
  have a4 := in_at P0 P1 P2 q u (4 : Fin 6) 4096 rfl (ix7_9 (ix2 q u)) rfl rfl
  have r4 := rec_at P3 P4 q u (4 : Fin 6) 4096 rfl (ix7_10 (ix2 q u)) rfl rfl
  have hc : P5 (ix7_2 (ix2 q u)) = P5 (ix2 q u) := congrArg P5 (funext fun a => Fin.ext (by
    match a with
    | ⟨0, _⟩ => rfl
    | ⟨1, _⟩ => rfl))
  dsimp only [E7]
  rw [a1, r1, a0, r0, a3, r3, a5, r5, a4, r4, hc]
  rfl

/-- The block stored as the new hidden value, at (q, u). -/
theorem out_block (P0 : Vec Ideal S128x1024 .f32) (P1 : Vec Ideal S6144x1024 .bf16) (P2 : Vec Ideal S1x6144 .f32)
    (P3 : Vec Ideal S128x1024 .f32) (P4 : Vec Ideal S6144x1024 .bf16) (P5 : Vec Ideal S128x1024 .f32)
    (q : Fin 128) (u : Fin 1024) :
    E6 (F := Ideal) P0 P1 P2 P3 P4 P5 (ix2 q u)
      = Cell.cellOut (blkIn P0 P1 P2 q u) (blkRec P3 P4 q u) (P5 (ix2 q u)) := by
  have a2 := in_at P0 P1 P2 q u (2 : Fin 6) 2048 rfl (ix6_0 (ix2 q u)) rfl rfl
  have r2 := rec_at P3 P4 q u (2 : Fin 6) 2048 rfl (ix6_1 (ix2 q u)) rfl rfl
  have a1 := in_at P0 P1 P2 q u (1 : Fin 6) 1024 rfl (ix6_2 (ix2 q u)) rfl rfl
  have r1 := rec_at P3 P4 q u (1 : Fin 6) 1024 rfl (ix6_3 (ix2 q u)) rfl rfl
  have a0 := in_at P0 P1 P2 q u (0 : Fin 6) 0 rfl (ix6_5 (ix2 q u)) rfl rfl
  have r0 := rec_at P3 P4 q u (0 : Fin 6) 0 rfl (ix6_6 (ix2 q u)) rfl rfl
  have a3 := in_at P0 P1 P2 q u (3 : Fin 6) 3072 rfl (ix6_7 (ix2 q u)) rfl rfl
  have r3 := rec_at P3 P4 q u (3 : Fin 6) 3072 rfl (ix6_8 (ix2 q u)) rfl rfl
  have a5 := in_at P0 P1 P2 q u (5 : Fin 6) 5120 rfl (ix6_9 (ix2 q u)) rfl rfl
  have r5 := rec_at P3 P4 q u (5 : Fin 6) 5120 rfl (ix6_10 (ix2 q u)) rfl rfl
  have a4 := in_at P0 P1 P2 q u (4 : Fin 6) 4096 rfl (ix6_11 (ix2 q u)) rfl rfl
  have r4 := rec_at P3 P4 q u (4 : Fin 6) 4096 rfl (ix6_12 (ix2 q u)) rfl rfl
  have hc : P5 (ix6_4 (ix2 q u)) = P5 (ix2 q u) := congrArg P5 (funext fun a => Fin.ext (by
    match a with
    | ⟨0, _⟩ => rfl
    | ⟨1, _⟩ => rfl))
  dsimp only [E6]
  rw [a2, r2, a1, r1, a0, r0, a3, r3, a5, r5, a4, r4, hc]
  rfl

end Cert.KernelIdeal.BlockCell

end
-- ==== Proof.HostWindows.lean ====
/-
  The three operands the host prepares before the kernel runs, read at an index.

  Before the launch the host merges the leading gate axis of each weight stack into the row axis — the six
  1024 × 1024 matrices become one matrix of 6144 rows, row g·1024 + u being row u of gate g — narrows the two merged
  matrices to the shorter float format, and lays the six bias rows end to end as one row of 6144 entries, entry
  g·1024 + u being entry u of gate g's row.  On the extended reals the narrowing is the identity, and a merge of axes
  keeps every element at its row-major position.  So, with j = g·1024 + u,

      merged input weights      (j, k)  =  W[g, u, k]
      merged recurrent weights  (j, k)  =  U[g, u, k]
      merged bias row           (0, j)  =  b[g, u].
-/
import proofs.«133136_j65962107732595_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostWindows

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The merged input weights, whole: the weight stack with its two leading axes merged. -/
theorem mergedW_eq (c : Dev nD) :
    (V (F := Ideal) m c main_v1 : S6144x1024.Idx → EReal)
      = shapeCast S6144x1024 (m ((c : Thread nD τ).loc main_arg3)) shapeCasts_S6x1024x1024_S6144x1024 := by
  dsimp only [V, hostOps0]; after_results; rfl

/-- The merged recurrent weights, whole. -/
theorem mergedU_eq (c : Dev nD) :
    (V (F := Ideal) m c main_v3 : S6144x1024.Idx → EReal)
      = shapeCast S6144x1024 (m ((c : Thread nD τ).loc main_arg5)) shapeCasts_S6x1024x1024_S6144x1024 := by
  dsimp only [V, hostOps0]; after_results; rfl

/-- The merged bias row, whole. -/
theorem mergedB_eq (c : Dev nD) :
    (V (F := Ideal) m c main_v4 : S1x6144.Idx → EReal)
      = shapeCast S1x6144 (m ((c : Thread nD τ).loc main_arg4)) shapeCasts_S6x1024_S1x6144 := by
  dsimp only [V, hostOps0]; after_results; rfl

/-- Row g·1024 + u of the merged input weights is row u of gate g's matrix. -/
theorem mergedW_apply (c : Dev nD) (g : Fin 6) (u k : Fin 1024) (j : Fin 6144) (hj : j.val = g.val * 1024 + u.val) :
    V (F := Ideal) m c main_v1 (ix2 j k) = m ((c : Thread nD τ).loc main_arg3) (ix3 g u k) := by
  rw [mergedW_eq]
  refine shapeCast_apply _ _ (ix2 j k) (ix3 g u k) ?_
  rw [Shape.rowMajor_val_three, Shape.rowMajor_val_two]
  show (g.val * 1024 + u.val) * 1024 + k.val = j.val * 1024 + k.val
  rw [hj]

/-- Row g·1024 + u of the merged recurrent weights is row u of gate g's matrix. -/
theorem mergedU_apply (c : Dev nD) (g : Fin 6) (u k : Fin 1024) (j : Fin 6144) (hj : j.val = g.val * 1024 + u.val) :
    V (F := Ideal) m c main_v3 (ix2 j k) = m ((c : Thread nD τ).loc main_arg5) (ix3 g u k) := by
  rw [mergedU_eq]
  refine shapeCast_apply _ _ (ix2 j k) (ix3 g u k) ?_
  rw [Shape.rowMajor_val_three, Shape.rowMajor_val_two]
  show (g.val * 1024 + u.val) * 1024 + k.val = j.val * 1024 + k.val
  rw [hj]

/-- Entry g·1024 + u of the merged bias row is entry u of gate g's bias row. -/
theorem mergedB_apply (c : Dev nD) (g : Fin 6) (u : Fin 1024) (j : Fin 6144) (hj : j.val = g.val * 1024 + u.val) :
    V (F := Ideal) m c main_v4 (ix2 (0 : Fin 1) j) = m ((c : Thread nD τ).loc main_arg4) (ix2 g u) := by
  rw [mergedB_eq]
  refine shapeCast_apply _ _ (ix2 (0 : Fin 1) j) (ix2 g u) ?_
  rw [Shape.rowMajor_val_two, Shape.rowMajor_val_two]
  show g.val * 1024 + u.val = 0 * 6144 + j.val
  rw [hj]; omega

end Cert.KernelIdeal.HostWindows

end
-- ==== Proof.KernelBlocks.lean ====
/-
  From the blocks the grid points write back to the two whole result arrays.

  The grid has 32 points.  Point t stages rows t·128 … t·128 + 127 of x, h_prev and c_prev, the whole merged
  weight matrices and the whole merged bias row, and writes back rows t·128 … t·128 + 127 of both results.  What it
  writes at row q of the block and unit u is the cell formed from the staged blocks; read back through the windows,
  the staged rows are the arrays' rows t·128 + q and the merged operands' row g·1024 + u is row u of gate g.  So point
  t writes block t of the cell's whole-array function, and since the 32 blocks of 128 rows fill the 4096 rows, each
  result array ends holding that function everywhere.
-/
import proofs.«133136_j65962107732595_2_alg».proof.Proof.Gen.KernelIdeal.Value
import proofs.«133136_j65962107732595_2_alg».proof.Proof.BlockCell
import proofs.«133136_j65962107732595_2_alg».proof.Proof.HostWindows
import proofs.«133136_j65962107732595_2_alg».proof.Proof.Cell

noncomputable section

namespace Cert.KernelIdeal.Blocks

open Cert.KernelIdeal Cert.KernelIdeal.Gen Cert.KernelIdeal.BlockCell Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t: the row-blocked windows at block row t, the whole-array windows
    at the origin. -/
structure IdxFacts (t : Fin cfg0.N) : Prop where
  w0r : win0_0.index t (0 : Fin 2) = t.val
  w0c : win0_0.index t (1 : Fin 2) = 0
  w1r : win0_1.index t (0 : Fin 2) = t.val
  w1c : win0_1.index t (1 : Fin 2) = 0
  w2r : win0_2.index t (0 : Fin 2) = t.val
  w2c : win0_2.index t (1 : Fin 2) = 0
  w3r : win0_3.index t (0 : Fin 2) = 0
  w3c : win0_3.index t (1 : Fin 2) = 0
  w4r : win0_4.index t (0 : Fin 2) = 0
  w4c : win0_4.index t (1 : Fin 2) = 0
  w5r : win0_5.index t (0 : Fin 2) = 0
  w5c : win0_5.index t (1 : Fin 2) = 0
  w6r : win0_6.index t (0 : Fin 2) = t.val
  w6c : win0_6.index t (1 : Fin 2) = 0
  w7r : win0_7.index t (0 : Fin 2) = t.val
  w7c : win0_7.index t (1 : Fin 2) = 0

/-- The printed index maps, decided once over the 32 grid points. -/
theorem idx_facts_raw : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_facts (t : Fin cfg0.N) : IdxFacts t := by
  obtain ⟨a0, a1, a2, a3, a4, a5, a6, a7, a8, a9, a10, a11, a12, a13, a14, a15⟩ := idx_facts_raw t
  exact ⟨a0, a1, a2, a3, a4, a5, a6, a7, a8, a9, a10, a11, a12, a13, a14, a15⟩

/-- Row t·128 + q of an array: row q of point t's block. -/
def row (t : Fin cfg0.N) (q : Fin 128) : Fin 4096 :=
  ⟨t.val * 128 + q.val, by
    have hN : cfg0.N = 32 := N_0
    have ht : t.val < 32 := Nat.lt_of_lt_of_eq t.isLt hN
    have hq := q.isLt; omega⟩

theorem row_val (t : Fin cfg0.N) (q : Fin 128) : (row t q).val = t.val * 128 + q.val := rfl

/-! ## The staged blocks, read back to the arrays -/

/-- Window 0's block at point t is rows t·128 … t·128 + 127 of its array. -/
theorem read0 (c : Dev nD) (t : Fin cfg0.N) (q : Fin 128) (k : Fin 1024) :
    iblk (F := Ideal) m c 0 t (ix2 q k) = (m ((c : Thread nD τ).loc main_arg0)) (ix2 (row t q) k) := by
  show V (F := Ideal) m c main_arg0 (((cfg0.win 0).blk t).view.emb (ix2 q k)) = _
  rw [V_main_arg0]
  refine congrArg (m ((c : Thread nD τ).loc main_arg0)) (funext fun a => Fin.ext ?_)
  have hf := idx_facts t
  match a with
  | ⟨0, _⟩ =>
    show win0_0.index t (0 : Fin 2) * 128 + 1 * q.val = t.val * 128 + q.val
    rw [hf.w0r]; omega
  | ⟨1, _⟩ =>
    show win0_0.index t (1 : Fin 2) * 1024 + 1 * k.val = k.val
    rw [hf.w0c]; omega

/-- Window 1's block at point t is rows t·128 … t·128 + 127 of its array. -/
theorem read1 (c : Dev nD) (t : Fin cfg0.N) (q : Fin 128) (k : Fin 1024) :
    iblk (F := Ideal) m c 1 t (ix2 q k) = (m ((c : Thread nD τ).loc main_arg1)) (ix2 (row t q) k) := by
  show V (F := Ideal) m c main_arg1 (((cfg0.win 1).blk t).view.emb (ix2 q k)) = _
  rw [V_main_arg1]
  refine congrArg (m ((c : Thread nD τ).loc main_arg1)) (funext fun a => Fin.ext ?_)
  have hf := idx_facts t
  match a with
  | ⟨0, _⟩ =>
    show win0_1.index t (0 : Fin 2) * 128 + 1 * q.val = t.val * 128 + q.val
    rw [hf.w1r]; omega
  | ⟨1, _⟩ =>
    show win0_1.index t (1 : Fin 2) * 1024 + 1 * k.val = k.val
    rw [hf.w1c]; omega

/-- Window 2's block at point t is rows t·128 … t·128 + 127 of its array. -/
theorem read2 (c : Dev nD) (t : Fin cfg0.N) (q : Fin 128) (k : Fin 1024) :
    iblk (F := Ideal) m c 2 t (ix2 q k) = (m ((c : Thread nD τ).loc main_arg2)) (ix2 (row t q) k) := by
  show V (F := Ideal) m c main_arg2 (((cfg0.win 2).blk t).view.emb (ix2 q k)) = _
  rw [V_main_arg2]
  refine congrArg (m ((c : Thread nD τ).loc main_arg2)) (funext fun a => Fin.ext ?_)
  have hf := idx_facts t
  match a with
  | ⟨0, _⟩ =>
    show win0_2.index t (0 : Fin 2) * 128 + 1 * q.val = t.val * 128 + q.val
    rw [hf.w2r]; omega
  | ⟨1, _⟩ =>
    show win0_2.index t (1 : Fin 2) * 1024 + 1 * k.val = k.val
    rw [hf.w2c]; omega

/-- Window 3's block at every point is the whole merged input weight matrix. -/
theorem read3 (c : Dev nD) (t : Fin cfg0.N) (j : Fin 6144) (k : Fin 1024) :
    iblk (F := Ideal) m c 3 t (ix2 j k) = V (F := Ideal) m c main_v1 (ix2 j k) := by
  show V (F := Ideal) m c main_v1 (((cfg0.win 3).blk t).view.emb (ix2 j k)) = _
  refine congrArg (V (F := Ideal) m c main_v1) (funext fun a => Fin.ext ?_)
  have hf := idx_facts t
  match a with
  | ⟨0, _⟩ =>
    show win0_3.index t (0 : Fin 2) * 6144 + 1 * j.val = j.val
    rw [hf.w3r]; omega
  | ⟨1, _⟩ =>
    show win0_3.index t (1 : Fin 2) * 1024 + 1 * k.val = k.val
    rw [hf.w3c]; omega

/-- Window 4's block at every point is the whole merged recurrent weight matrix. -/
theorem read4 (c : Dev nD) (t : Fin cfg0.N) (j : Fin 6144) (k : Fin 1024) :
    iblk (F := Ideal) m c 4 t (ix2 j k) = V (F := Ideal) m c main_v3 (ix2 j k) := by
  show V (F := Ideal) m c main_v3 (((cfg0.win 4).blk t).view.emb (ix2 j k)) = _
  refine congrArg (V (F := Ideal) m c main_v3) (funext fun a => Fin.ext ?_)
  have hf := idx_facts t
  match a with
  | ⟨0, _⟩ =>
    show win0_4.index t (0 : Fin 2) * 6144 + 1 * j.val = j.val
    rw [hf.w4r]; omega
  | ⟨1, _⟩ =>
    show win0_4.index t (1 : Fin 2) * 1024 + 1 * k.val = k.val
    rw [hf.w4c]; omega

/-- Window 5's block at every point is the whole merged bias row. -/
theorem read5 (c : Dev nD) (t : Fin cfg0.N) (j : Fin 1) (k : Fin 6144) :
    iblk (F := Ideal) m c 5 t (ix2 j k) = V (F := Ideal) m c main_v4 (ix2 j k) := by
  show V (F := Ideal) m c main_v4 (((cfg0.win 5).blk t).view.emb (ix2 j k)) = _
  refine congrArg (V (F := Ideal) m c main_v4) (funext fun a => Fin.ext ?_)
  have hf := idx_facts t
  match a with
  | ⟨0, _⟩ =>
    show win0_5.index t (0 : Fin 2) * 1 + 1 * j.val = j.val
    rw [hf.w5r]; omega
  | ⟨1, _⟩ =>
    show win0_5.index t (1 : Fin 2) * 6144 + 1 * k.val = k.val
    rw [hf.w5c]; omega

/-- Gate g's input half from the staged blocks at row q is the arrays' at row t·128 + q. -/
theorem blkIn_eq (c : Dev nD) (t : Fin cfg0.N) (q : Fin 128) (u : Fin 1024) :
    blkIn (iblk (F := Ideal) m c 0 t) (iblk (F := Ideal) m c 3 t) (iblk (F := Ideal) m c 5 t) q u
      = Cell.inPre (m ((c : Thread nD τ).loc main_arg0)) (m ((c : Thread nD τ).loc main_arg3)) (m ((c : Thread nD τ).loc main_arg4)) (row t q) u := by
  funext g
  unfold blkIn Cell.inPre
  refine congrArg₂ (· + ·) (Finset.sum_congr rfl fun k _ => ?_) ?_
  · rw [read0 m c t q k, read3 m c t (col g u) k, HostWindows.mergedW_apply m c g u k (col g u) (col_val g u)]
  · rw [read5 m c t (0 : Fin 1) (col g u), HostWindows.mergedB_apply m c g u (col g u) (col_val g u)]

/-- Gate g's recurrent half from the staged blocks at row q is the arrays' at row t·128 + q. -/
theorem blkRec_eq (c : Dev nD) (t : Fin cfg0.N) (q : Fin 128) (u : Fin 1024) :
    blkRec (iblk (F := Ideal) m c 1 t) (iblk (F := Ideal) m c 4 t) q u
      = Cell.recPre (m ((c : Thread nD τ).loc main_arg1)) (m ((c : Thread nD τ).loc main_arg5)) (row t q) u := by
  funext g
  unfold blkRec Cell.recPre
  refine Finset.sum_congr rfl fun k _ => ?_
  rw [read1 m c t q k, read4 m c t (col g u) k, HostWindows.mergedU_apply m c g u k (col g u) (col_val g u)]

/-! ## The two result arrays -/

/-- The array of new hidden values, of the arguments as launched. -/
def outOf (c : Dev nD) : FVec Ideal Cell.SRows .f32 := Cell.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The array of new cell states, of the arguments as launched. -/
def stateOf (c : Dev nD) : FVec Ideal Cell.SRows .f32 := Cell.stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An element (q, u) of window 6's block at point t sits at row t·128 + q, column u of the array. -/
theorem emb6 (t : Fin cfg0.N) (q : Fin 128) (u : Fin 1024) :
    ((cfg0.win 6).blk t).view.emb (ix2 q u) = ix2 (row t q) u := by
  funext a; apply Fin.ext
  have hf := idx_facts t
  match a with
  | ⟨0, _⟩ =>
    show win0_6.index t (0 : Fin 2) * 128 + 1 * q.val = t.val * 128 + q.val
    rw [hf.w6r]; omega
  | ⟨1, _⟩ =>
    show win0_6.index t (1 : Fin 2) * 1024 + 1 * u.val = u.val
    rw [hf.w6c]; omega

/-- What point t writes back to the first result is block t of the array of new hidden values. -/
theorem flushed6_eq (c : Dev nD) (t : Fin cfg0.N) :
    (dats (F := Ideal) m 0 c).flushed 6 t = ((cfg0.win 6).blk t).view.read (Elt Ideal) (outOf m c) := by
  rw [Value.flushed6]
  unfold out0_6
  simp only [View.ld_unit_zero (S := S128x1024) hz, View.ld_unit_zero (S := S6144x1024) hz, View.ld_unit_zero (S := S1x6144) hz]
  funext y
  obtain ⟨q, u, rfl⟩ : ∃ (q : Fin 128) (u : Fin 1024), y = ix2 q u := ⟨y 0, y 1, eq_ix2 y⟩
  show View.canon ([⟨r0_0, k0_pay1 (k0_pay4 (iblk m c 0 t) (iblk m c 1 t) (iblk m c 3 t) (iblk m c 5 t) (iblk m c 4 t)) (k0_pay5 (iblk m c 0 t) (iblk m c 1 t) (iblk m c 2 t) (iblk m c 3 t) (iblk m c 5 t) (iblk m c 4 t))⟩] : List (View.Piece (Elt Ideal) S128x1024 .f32)) (ix2 q u) = outOf m c (((cfg0.win 6).blk t).view.emb (ix2 q u))
  refine (Value.canon6_eq (F := Ideal) (iblk m c 0 t) (iblk m c 3 t) (iblk m c 5 t) (iblk m c 1 t) (iblk m c 4 t) (iblk m c 2 t) (ix2 q u)).trans ?_
  refine (out_block (iblk m c 0 t) (iblk m c 3 t) (iblk m c 5 t) (iblk m c 1 t) (iblk m c 4 t) (iblk m c 2 t) q u).trans ?_
  rw [emb6 t q u, blkIn_eq m c t q u, blkRec_eq m c t q u, read2 m c t q u]
  rfl

/-- An index of the array lies in point t's block iff each coordinate lies in the block's range. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v5_0).slice (win0_6.rect t)).set ↔ _
  rw [View.set_slice_whole, Rect.mem_set_unit]
  exact Iff.rfl

/-- The 32 blocks of 128 rows fill the array: row r lies in the block of point r / 128. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 32 := N_0
  refine ⟨⟨(i 0).val / 128, by rw [hN]; omega⟩, flush0_6 _, ?_⟩
  rw [mem_blk6]
  have hf := idx_facts ⟨(i 0).val / 128, by rw [hN]; omega⟩
  intro a
  match a with
  | ⟨0, _⟩ =>
    show win0_6.index _ (0 : Fin 2) * 128 ≤ (i 0).val ∧ (i 0).val < win0_6.index _ (0 : Fin 2) * 128 + 128
    rw [hf.w6r]
    show (i 0).val / 128 * 128 ≤ (i 0).val ∧ (i 0).val < (i 0).val / 128 * 128 + 128
    omega
  | ⟨1, _⟩ =>
    show win0_6.index _ (1 : Fin 2) * 1024 ≤ (i 1).val ∧ (i 1).val < win0_6.index _ (1 : Fin 2) * 1024 + 1024
    rw [hf.w6c]; omega

/-- The array after the run. -/
theorem final6 (c : Dev nD) : (dats (F := Ideal) m 0 c).arrAt 6 cfg0.N = outOf m c :=
  (dats (F := Ideal) m 0 c).arrAt_eq_of_cover 6 (outOf m c) (fun t _ => flushed6_eq m c t) cover6

/-- An element (q, u) of window 7's block at point t sits at row t·128 + q, column u of the array. -/
theorem emb7 (t : Fin cfg0.N) (q : Fin 128) (u : Fin 1024) :
    ((cfg0.win 7).blk t).view.emb (ix2 q u) = ix2 (row t q) u := by
  funext a; apply Fin.ext
  have hf := idx_facts t
  match a with
  | ⟨0, _⟩ =>
    show win0_7.index t (0 : Fin 2) * 128 + 1 * q.val = t.val * 128 + q.val
    rw [hf.w7r]; omega
  | ⟨1, _⟩ =>
    show win0_7.index t (1 : Fin 2) * 1024 + 1 * u.val = u.val
    rw [hf.w7c]; omega

/-- What point t writes back to the second result is block t of the array of new cell states. -/
theorem flushed7_eq (c : Dev nD) (t : Fin cfg0.N) :
    (dats (F := Ideal) m 0 c).flushed 7 t = ((cfg0.win 7).blk t).view.read (Elt Ideal) (stateOf m c) := by
  rw [Value.flushed7]
  unfold out0_7
  simp only [View.ld_unit_zero (S := S128x1024) hz, View.ld_unit_zero (S := S6144x1024) hz, View.ld_unit_zero (S := S1x6144) hz]
  funext y
  obtain ⟨q, u, rfl⟩ : ∃ (q : Fin 128) (u : Fin 1024), y = ix2 q u := ⟨y 0, y 1, eq_ix2 y⟩
  show View.canon ([⟨r0_0, k0_pay5 (iblk m c 0 t) (iblk m c 1 t) (iblk m c 2 t) (iblk m c 3 t) (iblk m c 5 t) (iblk m c 4 t)⟩] : List (View.Piece (Elt Ideal) S128x1024 .f32)) (ix2 q u) = stateOf m c (((cfg0.win 7).blk t).view.emb (ix2 q u))
  refine (Value.canon7_eq (F := Ideal) (iblk m c 0 t) (iblk m c 3 t) (iblk m c 5 t) (iblk m c 1 t) (iblk m c 4 t) (iblk m c 2 t) (ix2 q u)).trans ?_
  refine (state_block (iblk m c 0 t) (iblk m c 3 t) (iblk m c 5 t) (iblk m c 1 t) (iblk m c 4 t) (iblk m c 2 t) q u).trans ?_
  rw [emb7 t q u, blkIn_eq m c t q u, blkRec_eq m c t q u, read2 m c t q u]
  rfl

/-- An index of the array lies in point t's block iff each coordinate lies in the block's range. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v5_1).slice (win0_7.rect t)).set ↔ _
  rw [View.set_slice_whole, Rect.mem_set_unit]
  exact Iff.rfl

/-- The 32 blocks of 128 rows fill the array: row r lies in the block of point r / 128. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 32 := N_0
  refine ⟨⟨(i 0).val / 128, by rw [hN]; omega⟩, flush0_7 _, ?_⟩
  rw [mem_blk7]
  have hf := idx_facts ⟨(i 0).val / 128, by rw [hN]; omega⟩
  intro a
  match a with
  | ⟨0, _⟩ =>
    show win0_7.index _ (0 : Fin 2) * 128 ≤ (i 0).val ∧ (i 0).val < win0_7.index _ (0 : Fin 2) * 128 + 128
    rw [hf.w7r]
    show (i 0).val / 128 * 128 ≤ (i 0).val ∧ (i 0).val < (i 0).val / 128 * 128 + 128
    omega
  | ⟨1, _⟩ =>
    show win0_7.index _ (1 : Fin 2) * 1024 ≤ (i 1).val ∧ (i 1).val < win0_7.index _ (1 : Fin 2) * 1024 + 1024
    rw [hf.w7c]; omega

/-- The array after the run. -/
theorem final7 (c : Dev nD) : (dats (F := Ideal) m 0 c).arrAt 7 cfg0.N = stateOf m c :=
  (dats (F := Ideal) m 0 c).arrAt_eq_of_cover 7 (stateOf m c) (fun t _ => flushed7_eq m c t) cover7

/-! ## The run -/

/-- Every weakly fair execution of the kernel, read over the extended reals, ends with the first result holding the new hidden values and
    the second the new cell states, as functions of the arguments as launched, and the arguments unchanged. -/
theorem run : θ_run defs (onTc (τ := τ) (main (F := Ideal))) ⟨m, fun _ => 0, ρ⟩ fun r => ∀ c : Dev nD,
      r.2.mem ((c : Thread nD τ).loc main_v5_0) = outOf m c
      ∧ r.2.mem ((c : Thread nD τ).loc main_v5_1) = stateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks (F := Ideal) m ρ)

end Cert.KernelIdeal.Blocks

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefCell.lean ====
/-
  The reference's two results are the cell's two arrays.

  The reference forms all six gates at once.  One product of the weight stack with x gives, for gate g, unit u and
  row p, the sum Σ_d W[g, u, d] · x[p, d]; a swap of the last two axes puts the row before the unit; the bias row of
  gate g is repeated down the rows and added: that is the input half.  The recurrent half is the same product with
  h_prev and the other weight stack, and no bias.  A gate is then cut out of the stack of six and its unit leading
  axis dropped, which reads the stack at (g, p, u).  The reference spells the logistic function of z as the quotient
  1 / (1 + e^(-z)) with the literal 1.0 twice; on the extended reals that quotient is the logistic function at every
  z, both infinities included.  Inside each inner sum the reference multiplies weight by input where the cell is
  written input by weight; a product of two extended reals does not depend on the order of its factors.
-/
import proofs.«133136_j65962107732595_2_alg».proof.Proof.Gen.ReferenceIdeal.Read
import proofs.«133136_j65962107732595_2_alg».proof.Proof.Cell
import proofs.«133136_j65962107732595_2_alg».proof.Proof.LibLogistic
import Idealize.ShloMosaic.Lib.ValueIdx

noncomputable section

namespace Cert.ReferenceIdeal.RefCell

open Cert.ReferenceIdeal Cert.ReferenceIdeal.Read Idealize.ShloMosaic Idealize.ShloMosaic.ValueIdx

variable (x0 x1 x2 : (⟨S4096x1024, .f32⟩ : BufTy).Contents (Elt Ideal)) (x3 : (⟨S6x1024x1024, .f32⟩ : BufTy).Contents (Elt Ideal))
  (x4 : (⟨S6x1024, .f32⟩ : BufTy).Contents (Elt Ideal)) (x5 : (⟨S6x1024x1024, .f32⟩ : BufTy).Contents (Elt Ideal))

/-! ## Row-major positions of a 4096 × 1024 grid -/

/-- Position p·1024 + u lies in row p. -/
theorem unflat_row (p : Fin 4096) (u : Fin 1024) : (p.val * 1024 + u.val) / 1024 % 4096 = p.val := by
  have hp := p.isLt; have hu := u.isLt; omega

/-- Position p·1024 + u lies in column u. -/
theorem unflat_col (p : Fin 4096) (u : Fin 1024) : (p.val * 1024 + u.val) % 1024 = u.val := by
  have hu := u.isLt; omega

/-! ## The two halves of a gate's pre-activation -/

/-- The input half of gate g at (p, u): the product's sum with its factors swapped, plus the gate's bias entry. -/
theorem inHalf (g : Fin 6) (p : Fin 4096) (u : Fin 1024) :
    val_main_v4 (F := Ideal) x0 x3 x4 (ix3 g p u) = Cell.inPre x0 x3 x4 p u g := by
  rw [val_main_v4_apply, val_main_v1_apply, val_main_v0_apply, val_main_v3_apply, val_main_v2_apply]
  unfold Cell.inPre
  refine congrArg₂ (· + ·) (Finset.sum_congr rfl fun k _ => ?_) (congrArg x4 ?_)
  · rw [mul_comm]
    refine congrArg₂ (· * ·) (congrArg x0 ?_) (congrArg x3 ?_)
    · funext a; apply Fin.ext
      match a with
      | ⟨0, _⟩ => rfl
      | ⟨1, _⟩ => rfl
    · funext a; apply Fin.ext
      match a with
      | ⟨0, _⟩ => rfl
      | ⟨1, _⟩ => rfl
      | ⟨2, _⟩ => rfl
  · funext a; apply Fin.ext
    match a with
    | ⟨0, _⟩ => rfl
    | ⟨1, _⟩ => rfl

/-- The recurrent half of gate g at (p, u): the product's sum with its factors swapped; no bias. -/
theorem recHalf (g : Fin 6) (p : Fin 4096) (u : Fin 1024) :
    val_main_v6 (F := Ideal) x1 x5 (ix3 g p u) = Cell.recPre x1 x5 p u g := by
  rw [val_main_v6_apply, val_main_v5_apply]
  unfold Cell.recPre
  refine Finset.sum_congr rfl fun k _ => ?_
  rw [mul_comm]
  refine congrArg₂ (· * ·) (congrArg x1 ?_) (congrArg x5 ?_)
  · funext a; apply Fin.ext
    match a with
    | ⟨0, _⟩ => rfl
    | ⟨1, _⟩ => rfl
  · funext a; apply Fin.ext
    match a with
    | ⟨0, _⟩ => rfl
    | ⟨1, _⟩ => rfl
    | ⟨2, _⟩ => rfl

/-- The summed pre-activation of gate g at (p, u). -/
theorem preSum (g : Fin 6) (p : Fin 4096) (u : Fin 1024) :
    val_main_v7 (F := Ideal) x0 x1 x3 x4 x5 (ix3 g p u) = Cell.inPre x0 x3 x4 p u g + Cell.recPre x1 x5 p u g := by
  rw [val_main_v7_apply, inHalf, recHalf]; rfl

/-! ## One gate cut out of the stack of six -/

/-- Gate 0 of the summed pre-activations at (p, u). -/
theorem gate0_idx (p : Fin 4096) (u : Fin 1024) : idx_main_v8 (idx_main_v9 (ix2 p u)) = ix3 (0 : Fin 6) p u := by
  funext a; apply Fin.ext
  match a with
  | ⟨0, _⟩ => rfl
  | ⟨1, _⟩ => exact unflat_row p u
  | ⟨2, _⟩ => exact unflat_col p u

theorem gate0 (p : Fin 4096) (u : Fin 1024) :
    val_main_v9 (F := Ideal) x0 x1 x3 x4 x5 (ix2 p u) = val_main_v7 (F := Ideal) x0 x1 x3 x4 x5 (ix3 (0 : Fin 6) p u) := by
  rw [val_main_v9_apply, val_main_v8_apply, gate0_idx]

/-- Gate 1 of the summed pre-activations at (p, u). -/
theorem gate1_idx (p : Fin 4096) (u : Fin 1024) : idx_main_v16 (idx_main_v17 (ix2 p u)) = ix3 (1 : Fin 6) p u := by
  funext a; apply Fin.ext
  match a with
  | ⟨0, _⟩ => rfl
  | ⟨1, _⟩ => exact unflat_row p u
  | ⟨2, _⟩ => exact unflat_col p u

theorem gate1 (p : Fin 4096) (u : Fin 1024) :
    val_main_v17 (F := Ideal) x0 x1 x3 x4 x5 (ix2 p u) = val_main_v7 (F := Ideal) x0 x1 x3 x4 x5 (ix3 (1 : Fin 6) p u) := by
  rw [val_main_v17_apply, val_main_v16_apply, gate1_idx]

/-- Gate 2 of the summed pre-activations at (p, u). -/
theorem gate2_idx (p : Fin 4096) (u : Fin 1024) : idx_main_v24 (idx_main_v25 (ix2 p u)) = ix3 (2 : Fin 6) p u := by
  funext a; apply Fin.ext
  match a with
  | ⟨0, _⟩ => rfl
  | ⟨1, _⟩ => exact unflat_row p u
  | ⟨2, _⟩ => exact unflat_col p u

theorem gate2 (p : Fin 4096) (u : Fin 1024) :
    val_main_v25 (F := Ideal) x0 x1 x3 x4 x5 (ix2 p u) = val_main_v7 (F := Ideal) x0 x1 x3 x4 x5 (ix3 (2 : Fin 6) p u) := by
  rw [val_main_v25_apply, val_main_v24_apply, gate2_idx]

/-- Gate 3 of the summed pre-activations at (p, u). -/
theorem gate3_idx (p : Fin 4096) (u : Fin 1024) : idx_main_v32 (idx_main_v33 (ix2 p u)) = ix3 (3 : Fin 6) p u := by
  funext a; apply Fin.ext
  match a with
  | ⟨0, _⟩ => rfl
  | ⟨1, _⟩ => exact unflat_row p u
  | ⟨2, _⟩ => exact unflat_col p u

theorem gate3 (p : Fin 4096) (u : Fin 1024) :
    val_main_v33 (F := Ideal) x0 x1 x3 x4 x5 (ix2 p u) = val_main_v7 (F := Ideal) x0 x1 x3 x4 x5 (ix3 (3 : Fin 6) p u) := by
  rw [val_main_v33_apply, val_main_v32_apply, gate3_idx]

/-- Gate 4 of the input halves alone at (p, u): the multiplicative gate keeps its halves apart. -/
theorem gate4in_idx (p : Fin 4096) (u : Fin 1024) : idx_main_v35 (idx_main_v36 (ix2 p u)) = ix3 (4 : Fin 6) p u := by
  funext a; apply Fin.ext
  match a with
  | ⟨0, _⟩ => rfl
  | ⟨1, _⟩ => exact unflat_row p u
  | ⟨2, _⟩ => exact unflat_col p u

theorem gate4in (p : Fin 4096) (u : Fin 1024) :
    val_main_v36 (F := Ideal) x0 x3 x4 (ix2 p u) = val_main_v4 (F := Ideal) x0 x3 x4 (ix3 (4 : Fin 6) p u) := by
  rw [val_main_v36_apply, val_main_v35_apply, gate4in_idx]

/-- Gate 4 of the recurrent halves alone at (p, u). -/
theorem gate4rec_idx (p : Fin 4096) (u : Fin 1024) : idx_main_v37 (idx_main_v38 (ix2 p u)) = ix3 (4 : Fin 6) p u := by
  funext a; apply Fin.ext
  match a with
  | ⟨0, _⟩ => rfl
  | ⟨1, _⟩ => exact unflat_row p u
  | ⟨2, _⟩ => exact unflat_col p u

theorem gate4rec (p : Fin 4096) (u : Fin 1024) :
    val_main_v38 (F := Ideal) x1 x5 (ix2 p u) = val_main_v6 (F := Ideal) x1 x5 (ix3 (4 : Fin 6) p u) := by
  rw [val_main_v38_apply, val_main_v37_apply, gate4rec_idx]

/-- Gate 5 of the summed pre-activations at (p, u). -/
theorem gate5_idx (p : Fin 4096) (u : Fin 1024) : idx_main_v40 (idx_main_v41 (ix2 p u)) = ix3 (5 : Fin 6) p u := by
  funext a; apply Fin.ext
  match a with
  | ⟨0, _⟩ => rfl
  | ⟨1, _⟩ => exact unflat_row p u
  | ⟨2, _⟩ => exact unflat_col p u

theorem gate5 (p : Fin 4096) (u : Fin 1024) :
    val_main_v41 (F := Ideal) x0 x1 x3 x4 x5 (ix2 p u) = val_main_v7 (F := Ideal) x0 x1 x3 x4 x5 (ix3 (5 : Fin 6) p u) := by
  rw [val_main_v41_apply, val_main_v40_apply, gate5_idx]

/-! ## The quotient 1 / (1 + e^(-z)) is the logistic function -/

/-- The first gate's activation. -/
theorem sig0 (i : S4096x1024.Idx) :
    val_main_v15 (F := Ideal) x0 x1 x3 x4 x5 i = Ideal.logistic (val_main_v9 (F := Ideal) x0 x1 x3 x4 x5 i) := by
  rw [val_main_v15_apply, val_main_v14_apply, val_main_cst_0_apply, val_main_v13_apply, val_main_v12_apply,
    val_main_cst_apply, val_main_v11_apply, val_main_v10_apply]
  exact Cert.Logistic.one_div_one_add_exp_neg _

/-- The second gate's activation. -/
theorem sig1 (i : S4096x1024.Idx) :
    val_main_v23 (F := Ideal) x0 x1 x3 x4 x5 i = Ideal.logistic (val_main_v17 (F := Ideal) x0 x1 x3 x4 x5 i) := by
  rw [val_main_v23_apply, val_main_v22_apply, val_main_cst_2_apply, val_main_v21_apply, val_main_v20_apply,
    val_main_cst_1_apply, val_main_v19_apply, val_main_v18_apply]
  exact Cert.Logistic.one_div_one_add_exp_neg _

/-- The third gate's activation. -/
theorem sig2 (i : S4096x1024.Idx) :
    val_main_v31 (F := Ideal) x0 x1 x3 x4 x5 i = Ideal.logistic (val_main_v25 (F := Ideal) x0 x1 x3 x4 x5 i) := by
  rw [val_main_v31_apply, val_main_v30_apply, val_main_cst_4_apply, val_main_v29_apply, val_main_v28_apply,
    val_main_cst_3_apply, val_main_v27_apply, val_main_v26_apply]
  exact Cert.Logistic.one_div_one_add_exp_neg _

/-- The sixth gate's activation. -/
theorem sig5 (i : S4096x1024.Idx) :
    val_main_v47 (F := Ideal) x0 x1 x3 x4 x5 i = Ideal.logistic (val_main_v41 (F := Ideal) x0 x1 x3 x4 x5 i) := by
  rw [val_main_v47_apply, val_main_v46_apply, val_main_cst_6_apply, val_main_v45_apply, val_main_v44_apply,
    val_main_cst_5_apply, val_main_v43_apply, val_main_v42_apply]
  exact Cert.Logistic.one_div_one_add_exp_neg _

/-! ## The two results -/

/-- The reference's second result, the new cell state, at (p, u). -/
theorem state_apply (p : Fin 4096) (u : Fin 1024) :
    val_main_v52 (F := Ideal) x0 x1 x2 x3 x4 x5 (ix2 p u)
      = Cell.cellState (Cell.inPre x0 x3 x4 p u) (Cell.recPre x1 x5 p u) (x2 (ix2 p u)) := by
  rw [val_main_v52_apply, val_main_v50_apply, val_main_v48_apply, val_main_v49_apply, val_main_v51_apply, val_main_v39_apply,
    val_main_v34_apply, sig1, sig0, sig5, gate1, gate0, gate3, gate5, gate4in, gate4rec, inHalf, recHalf]
  simp only [preSum]
  rfl

/-- The reference's first result, the new hidden value, at (p, u). -/
theorem out_apply (p : Fin 4096) (u : Fin 1024) :
    val_main_v54 (F := Ideal) x0 x1 x2 x3 x4 x5 (ix2 p u)
      = Cell.cellOut (Cell.inPre x0 x3 x4 p u) (Cell.recPre x1 x5 p u) (x2 (ix2 p u)) := by
  rw [val_main_v54_apply, val_main_v53_apply, state_apply, sig2, gate2, preSum]
  rfl

/-- The reference's second result is the array of new cell states. -/
theorem state_eq : val_main_v52 (F := Ideal) x0 x1 x2 x3 x4 x5 = Cell.stateArr x0 x1 x2 x3 x4 x5 := by
  funext i
  obtain ⟨p, u, rfl⟩ : ∃ (p : Fin 4096) (u : Fin 1024), i = ix2 p u := ⟨i 0, i 1, eq_ix2 i⟩
  exact state_apply x0 x1 x2 x3 x4 x5 p u

/-- The reference's first result is the array of new hidden values. -/
theorem out_eq : val_main_v54 (F := Ideal) x0 x1 x2 x3 x4 x5 = Cell.outArr x0 x1 x2 x3 x4 x5 := by
  funext i
  obtain ⟨p, u, rfl⟩ : ∃ (p : Fin 4096) (u : Fin 1024), i = ix2 p u := ⟨i 0, i 1, eq_ix2 i⟩
  exact out_apply x0 x1 x2 x3 x4 x5 p u

end Cert.ReferenceIdeal.RefCell

end
-- ==== Proof.lean ====
/-
  A gated recurrent cell with six gates, computed two ways, gives the same two arrays over the extended reals.

  Inputs: x, h_prev, c_prev of 4096 rows by 1024 features, two stacks W, U of six 1024 × 1024 matrices and six bias
  rows b.  For row p, unit u and gate g let

      a_g = (Σ_d x[p, d] · W[g, u, d]) + b[g, u],        r_g = Σ_d h_prev[p, d] · U[g, u, d].

  With σ the logistic function the results are

      c_new[p, u] = (σ(a₁ + r₁) · c_prev[p, u] + σ(a₀ + r₀) · tanh (a₃ + r₃)) + σ(a₅ + r₅) · (a₄ · r₄)
      h_new[p, u] =  σ(a₂ + r₂) · tanh (c_new[p, u]).

  The kernel merges the gate axis of each weight stack into the row axis, so that one product of a block of 128 rows
  with the transposed 6144-row matrix yields all six gates side by side, and cuts gate g out at column offset
  g·1024; its 32 grid points each write 128 rows of both results, and together they fill the 4096 rows.  The
  reference multiplies the whole stacks at once, swaps two axes and cuts gate g out of a leading axis of six.

  Entry by entry both are the formulas above with the same grouping of every sum and product.  Three things differ
  in spelling only.  The kernel narrows its matrix operands to a shorter float format, which is the identity on the
  extended reals.  The reference writes the logistic function as the quotient 1 / (1 + e^(-z)), which is the
  logistic function at every extended real, the infinities included.  And inside an inner sum one side multiplies
  input by weight, the other weight by input.  None of this needs an entry to be finite, so the precondition is
  never opened.  The kernel read over the extended reals is the kernel's own text, no operation rewritten, so the
  conjunct that compares the two readings asks nothing.
-/
import proofs.«133136_j65962107732595_2_alg».proof.Defs
import proofs.«133136_j65962107732595_2_alg».proof.Proof.Gen.Kernel
import proofs.«133136_j65962107732595_2_alg».proof.Proof.Gen.Kernel.Skeleton
import proofs.«133136_j65962107732595_2_alg».proof.Proof.Gen.Kernel.Launch
import proofs.«133136_j65962107732595_2_alg».proof.Proof.Gen.Kernel.Points
import proofs.«133136_j65962107732595_2_alg».proof.Proof.Gen.Kernel.Frame
import proofs.«133136_j65962107732595_2_alg».proof.Proof.Gen.KernelIdeal
import proofs.«133136_j65962107732595_2_alg».proof.Proof.Gen.KernelIdeal.Skeleton
import proofs.«133136_j65962107732595_2_alg».proof.Proof.Gen.KernelIdeal.Launch
import proofs.«133136_j65962107732595_2_alg».proof.Proof.Gen.KernelIdeal.Points
import proofs.«133136_j65962107732595_2_alg».proof.Proof.Gen.KernelIdeal.Frame
import proofs.«133136_j65962107732595_2_alg».proof.Proof.Gen.ReferenceIdeal
import proofs.«133136_j65962107732595_2_alg».proof.Proof.Gen.Pre_finite_inputs
import proofs.«133136_j65962107732595_2_alg».proof.Proof.Gen.KernelIdeal.Value
import proofs.«133136_j65962107732595_2_alg».proof.Proof.Gen.ReferenceIdeal.Run
import proofs.«133136_j65962107732595_2_alg».proof.Proof.Gen.ReferenceIdeal.Read
import proofs.«133136_j65962107732595_2_alg».proof.Proof.KernelBlocks
import proofs.«133136_j65962107732595_2_alg».proof.Proof.RefCell
import Idealize.ShloMosaic.Adequacy
import Idealize.ShloMosaic.Init

noncomputable section

namespace Cert.Proof

open Idealize.ShloMosaic Idealize.SL.Sem Cert.Kernel

/-- The kernel as printed runs to the end without a fault and leaves its arguments as they were. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- And the reference: its run with the two results dropped. -/
theorem frame_referenceIdeal : Cert.frame_ReferenceIdeal :=
  fun m ρ _ => (θ_run Cert.ReferenceIdeal.defs _ _).mono (fun _ h c => (h c).2.2)
    (Cert.ReferenceIdeal.Value.run (F := Ideal) m ρ)

/-- From memories that agree on the six arguments, the kernel's two arrays and the reference's two results are the
    same arrays: the new hidden values and the new cell states of the cell above. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v54_eq, Cert.ReferenceIdeal.RefCell.out_eq, (hagree c).1, (hagree c).2.1, (hagree c).2.2.1, (hagree c).2.2.2.1, (hagree c).2.2.2.2.1, (hagree c).2.2.2.2.2]
    rfl
  · rw [Cert.ReferenceIdeal.Read.val_main_v52_eq, Cert.ReferenceIdeal.RefCell.state_eq, (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
